-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S256x128 : Shape := ⟨2, ![256, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel

variable [Facts]

def fn {F : FTy → Type} [FloatOps F] (main_arg0 : IVec S64x2048 32) (main_arg1 : IVec S64x2048 32) (main_arg2 : IVec S64x2048 32) (main_arg3 : FVec F S256x128 .f32) : IVec S_ 1 :=
  let main_v0 : FVec F S256x128 .f32 := Host.absf main_arg3
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  main_v3
-- ==== Kernel.lean ====
abbrev S64x2048 : Shape := ⟨2, ![64, 2048]⟩
abbrev S256x128 : Shape := ⟨2, ![256, 128]⟩
abbrev S128x256 : Shape := ⟨2, ![128, 256]⟩
abbrev S64x65536 : Shape := ⟨2, ![64, 65536]⟩
abbrev S64x131072 : Shape := ⟨2, ![64, 131072]⟩
abbrev S64x2048x256 : Shape := ⟨3, ![64, 2048, 256]⟩
abbrev S32x128 : Shape := ⟨2, ![32, 128]⟩
abbrev S32x4096 : Shape := ⟨2, ![32, 4096]⟩
abbrev S32x8192 : Shape := ⟨2, ![32, 8192]⟩
abbrev S32x128x256 : Shape := ⟨3, ![32, 128, 256]⟩
abbrev S32x128x1 : Shape := ⟨3, ![32, 128, 1]⟩
abbrev S32x128x32 : Shape := ⟨3, ![32, 128, 32]⟩
abbrev S32x128x64 : Shape := ⟨3, ![32, 128, 64]⟩
abbrev S32x128x128 : Shape := ⟨3, ![32, 128, 128]⟩
abbrev S4096x128 : Shape := ⟨2, ![4096, 128]⟩
abbrev S4096x256 : Shape := ⟨2, ![4096, 256]⟩
abbrev S64x2048x32 : Shape := ⟨3, ![64, 2048, 32]⟩
abbrev S64x2048x64 : Shape := ⟨3, ![64, 2048, 64]⟩

abbrev nBuf : Space → Nat
  | .hbm => 13
  | .vmem => 15
  | .smem => 0
  | _ => 0

abbrev bufTy : (tb : Table) → Fin (tcTables nBuf tb) → BufTy
  | .hbm, ⟨0, _⟩ => ⟨S64x2048, .i32⟩
  | .hbm, ⟨1, _⟩ => ⟨S64x2048, .i32⟩
  | .hbm, ⟨2, _⟩ => ⟨S64x2048, .i32⟩
  | .hbm, ⟨3, _⟩ => ⟨S256x128, .f32⟩
  | .hbm, ⟨4, _⟩ => ⟨S128x256, .f32⟩
  | .hbm, ⟨5, _⟩ => ⟨S128x256, .bf16⟩
  | .hbm, ⟨6, _⟩ => ⟨S64x65536, .f32⟩
  | .hbm, ⟨7, _⟩ => ⟨S64x65536, .f32⟩
  | .hbm, ⟨8, _⟩ => ⟨S64x131072, .f32⟩
  | .hbm, ⟨9, _⟩ => ⟨S64x2048x256, .f32⟩
  | .hbm, ⟨10, _⟩ => ⟨S64x2048x32, .f32⟩
  | .hbm, ⟨11, _⟩ => ⟨S64x2048x32, .f32⟩
  | .hbm, ⟨12, _⟩ => ⟨S64x2048x64, .f32⟩
  | .local _ .vmem, ⟨0, _⟩ => ⟨S32x128, .i32⟩
  | .local _ .vmem, ⟨1, _⟩ => ⟨S32x128, .i32⟩
  | .local _ .vmem, ⟨2, _⟩ => ⟨S32x128, .i32⟩
  | .local _ .vmem, ⟨3, _⟩ => ⟨S32x128, .i32⟩
  | .local _ .vmem, ⟨4, _⟩ => ⟨S32x128, .i32⟩
  | .local _ .vmem, ⟨5, _⟩ => ⟨S32x128, .i32⟩
  | .local _ .vmem, ⟨6, _⟩ => ⟨S128x256, .bf16⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x8192, .f32⟩
  | .local _ .vmem, ⟨12, _⟩ => ⟨S32x8192, .f32⟩
  | .local _ .vmem, ⟨13, _⟩ => ⟨S32x128x256, .f32⟩
  | .local _ .vmem, ⟨14, _⟩ => ⟨S32x128x256, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S256x128_S128x256_1_0 : S256x128.Transposes [1, 0] S128x256
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128x1 : S32x128.ShapeCasts S32x128x1
  iota_S32x128x32_d2_w32 : S32x128x32.Iotas .tc 32 [2]
  broadcasts_S32x128x1_S32x128x32 : S32x128x1.Broadcasts S32x128x32
  natLt_1_32 : 1 < 32
  iota_S32x128x64_d2_w32 : S32x128x64.Iotas .tc 32 [2]
  broadcasts_S32x128x1_S32x128x64 : S32x128x1.Broadcasts S32x128x64
  shapeCasts_S32x128x32_S32x4096 : S32x128x32.ShapeCasts S32x4096
  inb_S32x4096_S32x4096_0_0 : ∀ a, (![0, 0] : Fin 2 → Nat) a + S32x4096.size a ≤ S32x4096.size a
  h_S32x4096 : 0 < S32x4096.numel
  shapeCasts_S32x128x64_S32x8192 : S32x128x64.ShapeCasts S32x8192
  inb_S32x8192_S32x8192_0_0 : ∀ a, (![0, 0] : Fin 2 → Nat) a + S32x8192.size a ≤ S32x8192.size a
  h_S32x8192 : 0 < S32x8192.numel
  concatenates_S32x128x32_S32x128x32_S32x128x64_S32x128x128_d2 : Shape.Concatenates [S32x128x32, S32x128x32, S32x128x64] S32x128x128 2
  shapeCasts_S32x128x128_S4096x128 : S32x128x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S4096x256_S32x128x256 : S4096x256.ShapeCasts S32x128x256
  inb_S32x128x256_S32x128x256_0_0_0 : ∀ a, (![0, 0, 0] : Fin 3 → Nat) a + S32x128x256.size a ≤ S32x128x256.size a
  h_S32x128x256 : 0 < S32x128x256.numel
  shapeCasts_S64x65536_S64x2048x32 : S64x65536.ShapeCasts S64x2048x32
  shapeCasts_S64x131072_S64x2048x64 : S64x131072.ShapeCasts S64x2048x64
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S64x2048.size a
  hwx0_0 : ∀ i : grid0.Coords, EltTy.bits .i32 = 32 ∨ (Rect.block (s := S64x2048) S32x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S64x2048.size a
  hwx0_1 : ∀ i : grid0.Coords, EltTy.bits .i32 = 32 ∨ (Rect.block (s := S64x2048) S32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x2048.size a
  hwx0_2 : ∀ i : grid0.Coords, EltTy.bits .i32 = 32 ∨ (Rect.block (s := S64x2048) S32x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4096.size a ≤ S64x65536.size a
  hwx0_4 : ∀ i : grid0.Coords, EltTy.bits .f32 = 32 ∨ (Rect.block (s := S64x65536) S32x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x4096.size a ≤ S64x65536.size a
  hwx0_5 : ∀ i : grid0.Coords, EltTy.bits .f32 = 32 ∨ (Rect.block (s := S64x65536) S32x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x8192.size a ≤ S64x131072.size a
  hwx0_6 : ∀ i : grid0.Coords, EltTy.bits .f32 = 32 ∨ (Rect.block (s := S64x131072) S32x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x256.size a ≤ S64x2048x256.size a
  hwx0_7 : ∀ i : grid0.Coords, EltTy.bits .f32 = 32 ∨ (Rect.block (s := S64x2048x256) S32x128x256.size (cc0_transform_7 i) (hinb0_7 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S32x8192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S32x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x2048 : Shape := ⟨2, ![64, 2048]⟩
abbrev S256x128 : Shape := ⟨2, ![256, 128]⟩
abbrev S64x2048x1 : Shape := ⟨3, ![64, 2048, 1]⟩
abbrev S1x1x32 : Shape := ⟨3, ![1, 1, 32]⟩
abbrev S64x2048x32 : Shape := ⟨3, ![64, 2048, 32]⟩
abbrev S1x1x64 : Shape := ⟨3, ![1, 1, 64]⟩
abbrev S64x2048x64 : Shape := ⟨3, ![64, 2048, 64]⟩
abbrev S64x2048x128 : Shape := ⟨3, ![64, 2048, 128]⟩
abbrev S64x2048x256 : Shape := ⟨3, ![64, 2048, 256]⟩

abbrev nBuf : Space → Nat
  | .hbm => 24
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64x2048, .i32⟩
  | .hbm, ⟨2, _⟩ => ⟨S64x2048, .i32⟩
  | .hbm, ⟨3, _⟩ => ⟨S256x128, .f32⟩
  | .hbm, ⟨4, _⟩ => ⟨S64x2048x1, .i32⟩
  | .hbm, ⟨5, _⟩ => ⟨S1x1x32, .i32⟩
  | .hbm, ⟨6, _⟩ => ⟨S64x2048x32, .i32⟩
  | .hbm, ⟨7, _⟩ => ⟨S64x2048x32, .i32⟩
  | .hbm, ⟨8, _⟩ => ⟨S64x2048x32, .i1⟩
  | .hbm, ⟨9, _⟩ => ⟨S64x2048x32, .f32⟩
  | .hbm, ⟨10, _⟩ => ⟨S64x2048x1, .i32⟩
  | .hbm, ⟨11, _⟩ => ⟨S1x1x32, .i32⟩
  | .hbm, ⟨12, _⟩ => ⟨S64x2048x32, .i32⟩
  | .hbm, ⟨13, _⟩ => ⟨S64x2048x32, .i32⟩
  | .hbm, ⟨14, _⟩ => ⟨S64x2048x32, .i1⟩
  | .hbm, ⟨15, _⟩ => ⟨S64x2048x32, .f32⟩
  | .hbm, ⟨16, _⟩ => ⟨S64x2048x1, .i32⟩
  | .hbm, ⟨17, _⟩ => ⟨S1x1x64, .i32⟩
  | .hbm, ⟨18, _⟩ => ⟨S64x2048x64, .i32⟩
  | .hbm, ⟨19, _⟩ => ⟨S64x2048x64, .i32⟩
  | .hbm, ⟨20, _⟩ => ⟨S64x2048x64, .i1⟩
  | .hbm, ⟨21, _⟩ => ⟨S64x2048x64, .f32⟩
  | .hbm, ⟨22, _⟩ => ⟨S64x2048x128, .f32⟩
  | .hbm, ⟨23, _⟩ => ⟨S64x2048x256, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v1 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  bcast_S64x2048_S64x2048x1_0_1 : S64x2048.BroadcastsInDim S64x2048x1 (![0, 1] : Fin 2 → Fin S64x2048x1.rank)
  bcast_S64x2048x1_S64x2048x32_0_1_2 : S64x2048x1.BroadcastsInDim S64x2048x32 (![0, 1, 2] : Fin 3 → Fin S64x2048x32.rank)
  bcast_S1x1x32_S64x2048x32_0_1_2 : S1x1x32.BroadcastsInDim S64x2048x32 (![0, 1, 2] : Fin 3 → Fin S64x2048x32.rank)
  bcast_S64x2048x1_S64x2048x64_0_1_2 : S64x2048x1.BroadcastsInDim S64x2048x64 (![0, 1, 2] : Fin 3 → Fin S64x2048x64.rank)
  bcast_S1x1x64_S64x2048x64_0_1_2 : S1x1x64.BroadcastsInDim S64x2048x64 (![0, 1, 2] : Fin 3 → Fin S64x2048x64.rank)
  concatenates_S64x2048x32_S64x2048x32_S64x2048x64_S64x2048x128_d2 : Shape.Concatenates [S64x2048x32, S64x2048x32, S64x2048x64] S64x2048x128 2
  dot_S64x2048x128_S256x128_S64x2048x256_2_1_01_0_n_n_wf : DotDims.WF S64x2048x128 S256x128 S64x2048x256 [2] [1] [0, 1] [0] [] []

variable [Facts₀]

def dot_S64x2048x128_S256x128_S64x2048x256_2_1_01_0_n_n : DotDims S64x2048x128 S256x128 S64x2048x256 where
  lhsContracting := [2]
  rhsContracting := [1]
  lhsNonContracting := [0, 1]
  rhsNonContracting := [0]
  lhsBatch := []
  rhsBatch := []
  wf := dot_S64x2048x128_S256x128_S64x2048x256_2_1_01_0_n_n_wf

class Facts : Prop extends Facts₀ where

variable [Facts]
-- ==== Proof.KernelReads.lean ====
/-
  The input windows' blocks of the idealized kernel, read at an index of the arrays the region finds.

  The grid has 2 × 16 points; at the point with coordinates (t0, t1) each integer array's window is at block
  (t0, t1) of blocks [32, 128], the first three outputs' windows at block (t0, t1) of blocks [32, 4096],
  [32, 4096], [32, 8192], the last output's at block (t0, t1, 0) of blocks [32, 128, 256], and the weights' window
  is the whole matrix at every point (`idx_facts`, decided over the 32 points). So entry (p, q) of an integer block
  is the array's entry (32 t0 + p, 128 t1 + q). The weights reach the region transposed, [128, 256], and changed
  to a narrower float format, which at the ideal values changes nothing: entry (k, o) of their block is W (o, k).
-/
import proofs.«168513_j1365799600731_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Reads

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every integer window and every output window moves with the
    first output's window, the weights' window stays at block (0, 0), the last output's third block index is 0,
    and the block indices stay in their ranges. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = 0 ∧ win0_3.index t (1 : Fin 2) = 0
    ∧ win0_5.index t (0 : Fin 2) = win0_4.index t (0 : Fin 2) ∧ win0_5.index t (1 : Fin 2) = win0_4.index t (1 : Fin 2)
    ∧ win0_6.index t (0 : Fin 2) = win0_4.index t (0 : Fin 2) ∧ win0_6.index t (1 : Fin 2) = win0_4.index t (1 : Fin 2)
    ∧ win0_7.index t (0 : Fin 3) = win0_4.index t (0 : Fin 2) ∧ win0_7.index t (1 : Fin 3) = win0_4.index t (1 : Fin 2)
    ∧ win0_7.index t (2 : Fin 3) = 0
    ∧ win0_4.index t (0 : Fin 2) ≤ 1 ∧ win0_4.index t (1 : Fin 2) ≤ 15 :=
  (by decide +kernel : ∀ t : Fin grid0.N, _)

/-- Every block position (t0, t1) is SOME point's. -/
theorem idx_onto : ∀ (q0 : Fin 2) (q1 : Fin 16), ∃ t : Fin cfg0.N, win0_4.index t = ![q0.val, q1.val] :=
  (by decide +kernel : ∀ (q0 : Fin 2) (q1 : Fin 16), ∃ t : Fin grid0.N, win0_4.index t = ![q0.val, q1.val])

/-- Entry (p, q) of the first integer array's block at point t is the array's entry (32 t0 + p, 128 t1 + q). -/
theorem iblk0_apply (c : Dev nD) (t : Fin cfg0.N) (p : Fin 32) (q : Fin 128) (B : Fin 64) (L : Fin 2048)
    (hB : B.val = win0_4.index t (0 : Fin 2) * 32 + p.val) (hL : L.val = win0_4.index t (1 : Fin 2) * 128 + q.val) :
    iblk m c 0 t (ix2 p q) = m ((c : Thread nD τ).loc main_arg0) (ix2 B L) := by
  obtain ⟨e0, e1, -⟩ := idx_facts t
  show V m c main_arg0 (((cfg0.win 0).blk t).view.emb (ix2 p q)) = _
  rw [V_main_arg0]
  refine congrArg _ (funext fun a => Fin.ext ?_)
  match a with
  | ⟨0, _⟩ => show win0_0.index t (0 : Fin 2) * 32 + 1 * p.val = B.val; omega
  | ⟨1, _⟩ => show win0_0.index t (1 : Fin 2) * 128 + 1 * q.val = L.val; omega

/-- The second integer array's block, likewise. -/
theorem iblk1_apply (c : Dev nD) (t : Fin cfg0.N) (p : Fin 32) (q : Fin 128) (B : Fin 64) (L : Fin 2048)
    (hB : B.val = win0_4.index t (0 : Fin 2) * 32 + p.val) (hL : L.val = win0_4.index t (1 : Fin 2) * 128 + q.val) :
    iblk m c 1 t (ix2 p q) = m ((c : Thread nD τ).loc main_arg1) (ix2 B L) := by
  obtain ⟨-, -, e0, e1, -⟩ := idx_facts t
  show V m c main_arg1 (((cfg0.win 1).blk t).view.emb (ix2 p q)) = _
  rw [V_main_arg1]
  refine congrArg _ (funext fun a => Fin.ext ?_)
  match a with
  | ⟨0, _⟩ => show win0_1.index t (0 : Fin 2) * 32 + 1 * p.val = B.val; omega
  | ⟨1, _⟩ => show win0_1.index t (1 : Fin 2) * 128 + 1 * q.val = L.val; omega

/-- The third integer array's block, likewise. -/
theorem iblk2_apply (c : Dev nD) (t : Fin cfg0.N) (p : Fin 32) (q : Fin 128) (B : Fin 64) (L : Fin 2048)
    (hB : B.val = win0_4.index t (0 : Fin 2) * 32 + p.val) (hL : L.val = win0_4.index t (1 : Fin 2) * 128 + q.val) :
    iblk m c 2 t (ix2 p q) = m ((c : Thread nD τ).loc main_arg2) (ix2 B L) := by
  obtain ⟨-, -, -, -, e0, e1, -⟩ := idx_facts t
  show V m c main_arg2 (((cfg0.win 2).blk t).view.emb (ix2 p q)) = _
  rw [V_main_arg2]
  refine congrArg _ (funext fun a => Fin.ext ?_)
  match a with
  | ⟨0, _⟩ => show win0_2.index t (0 : Fin 2) * 32 + 1 * p.val = B.val; omega
  | ⟨1, _⟩ => show win0_2.index t (1 : Fin 2) * 128 + 1 * q.val = L.val; omega

/-- What the region finds in the weights' buffer: the weight matrix transposed, then changed to the narrower
    float format (the two host operations before the region). -/
theorem weights_entry (c : Dev nD) :
    (V m c main_v1 : FVec Ideal S128x256 .bf16)
      = truncf (F := Ideal) .bf16 (transpose S128x256 [1, 0]
          (m ((c : Thread nD τ).loc main_arg3) : FVec Ideal S256x128 .f32) transposes_S256x128_S128x256_1_0)
          bitsLt_bf16_f32 := by
  show StableHlo.after hostOps0 (fun b => m (c, b)) (Proc.devRef .tc main_v1) = _
  after_results

/-- Entry (k, o) of the weights' block, at any point, is W (o, k). -/
theorem wblk_apply (c : Dev nD) (t : Fin cfg0.N) (k : Fin 128) (o : Fin 256) :
    iblk m c 3 t (ix2 k o) = m ((c : Thread nD τ).loc main_arg3) (ix2 o k) := by
  obtain ⟨-, -, -, -, -, -, e0, e1, -⟩ := idx_facts t
  show V m c main_v1 (((cfg0.win 3).blk t).view.emb (ix2 k o)) = _
  have he : ((cfg0.win 3).blk t).view.emb (ix2 k o) = ix2 k o := funext fun a => Fin.ext (by
    match a with
    | ⟨0, _⟩ => show win0_3.index t (0 : Fin 2) * 128 + 1 * k.val = k.val; omega
    | ⟨1, _⟩ => show win0_3.index t (1 : Fin 2) * 256 + 1 * o.val = o.val; omega)
  rw [he, weights_entry m c]
  show transpose S128x256 [1, 0] (m ((c : Thread nD τ).loc main_arg3) : FVec Ideal S256x128 .f32)
    transposes_S256x128_S128x256_1_0 (ix2 k o) = _
  exact transpose_apply [1, 0] _ _ (ix2 k o) (ix2 o k) (fun b => by
    match b with
    | ⟨0, _⟩ => rfl
    | ⟨1, _⟩ => rfl)

end Cert.KernelIdeal.Reads

end
-- ==== Proof.LibGroupCasts.lean ====
/-
  A matrix whose rows are cut into groups: the casts between [a, n] and [a, b, c] with n = b * c.

  Both arrays hold the same entries in the same row-major order, so entry (i, g, l) of the grouped array is
  entry (i, g * c + l) of the matrix: group g of row i starts at column g * c. General in the extents and in
  the element type.
-/
import Idealize.ShloMosaic.Lib.Pipeline.Value
import Idealize.ShloMosaic.Lib.ValueIdx

namespace Cert.GroupCasts

open Idealize.ShloMosaic Idealize.ShloMosaic.ValueIdx

variable {α : Type}

/-- [a, n] cast to [a, b, c], n = b * c: entry (i, g, l) is the matrix's entry (i, k) with k = g * c + l. -/
theorem shapeCast_rows_grouped_apply {a n b c : ℕ} (hn : n = b * c) (x : (⟨2, ![a, n]⟩ : Shape).Idx → α)
    (h : (⟨2, ![a, n]⟩ : Shape).ShapeCasts ⟨3, ![a, b, c]⟩) (i : Fin a) (g : Fin b) (l : Fin c) (k : Fin n)
    (hk : k.val = g.val * c + l.val) : shapeCast ⟨3, ![a, b, c]⟩ x h (ix3 i g l) = x (ix2 i k) :=
  shapeCast_apply x h _ _ (by
    rw [Shape.rowMajor_val_three, Shape.rowMajor_val_two]
    show i.val * n + k.val = (i.val * b + g.val) * c + l.val
    rw [hk, hn, Nat.add_mul, Nat.mul_assoc, Nat.add_assoc])

/-- [a, b, c] cast to [a, n], n = b * c: entry (i, k) with k = g * c + l is the grouped array's entry (i, g, l). -/
theorem shapeCast_grouped_rows_apply {a n b c : ℕ} (hn : n = b * c) (x : (⟨3, ![a, b, c]⟩ : Shape).Idx → α)
    (h : (⟨3, ![a, b, c]⟩ : Shape).ShapeCasts ⟨2, ![a, n]⟩) (i : Fin a) (g : Fin b) (l : Fin c) (k : Fin n)
    (hk : k.val = g.val * c + l.val) : shapeCast ⟨2, ![a, n]⟩ x h (ix2 i k) = x (ix3 i g l) :=
  shapeCast_apply x h _ _ (by
    rw [Shape.rowMajor_val_three, Shape.rowMajor_val_two]
    show (i.val * b + g.val) * c + l.val = i.val * n + k.val
    rw [hk, hn, Nat.add_mul, Nat.mul_assoc, Nat.add_assoc])

end Cert.GroupCasts
-- ==== Proof.Spec.lean ====
/-
  What both programs compute, as functions of the argument arrays, index by index, on the extended reals.

  The three integer arrays x0, x1, x2 : [64, 2048] give each position (b, l) three 32-bit words. Each is turned
  into a row of indicators: entry n of the row for a word w is 1 when w is the word of the number n and 0
  otherwise (`hot`), with n below 32 for x0 and x1 and below 64 for x2 — three arrays [64, 2048, 32],
  [64, 2048, 32], [64, 2048, 64]. Laid side by side the three rows are the 128 features of the position (`feat`),
  and the fourth result is their image under the linear layer W : [256, 128], entry (b, l, e) being the sum over
  the features k of feat k · W (e, k) (`emb`). Every entry of every result depends on the words at ONE position
  only, so a block of positions of a result is the same function of that block of positions of the inputs.
  The indicator is spelt as the conversion of the comparison's bit read unsigned, so that neither side has to
  evaluate it; no property of the numbers 0 and 1 is used anywhere.
  The kernel first writes each indicator array with positions and categories merged into one axis, [64, 2048 · N]
  (`merged`), and a reshape splits the axis again (`unmerged`).
-/
import Idealize.ShloMosaic.PureOps.Ideal
import Idealize.ShloMosaic.Lib.ValueIdx
import Idealize.ShloMosaic.Lib.Pipeline.Value
import proofs.«168513_j1365799600731_2_alg».proof.Proof.LibGroupCasts

noncomputable section

namespace Cert.OneHotEmbed

open Idealize.ShloMosaic Idealize.ShloMosaic.ValueIdx
open scoped BigOperators

/-- The indicator, as a number, of "the word w is the word of the number n". -/
def hot (w : BitVec 32) (n : ℕ) : EReal :=
  FloatOps.uitofp (F := Ideal) .f32 (IntOp.cmpi .eq w (BitVec.ofNat 32 n))

/-- The array of indicators over N categories: entry (b, l, n) says whether x (b, l) is the category n. -/
def hotArr (N : ℕ) (x : IVec ⟨2, ![64, 2048]⟩ 32) : FVec Ideal ⟨3, ![64, 2048, N]⟩ .f32 :=
  fun i => hot (x (ix2 (i 0) (i 1))) (i 2).val

/-- Feature k of a position whose three words are w0, w1, w2: the indicators of w0 over 32 categories, then
    those of w1 over 32, then those of w2 over 64. -/
def feat (w0 w1 w2 : BitVec 32) (k : ℕ) : EReal :=
  if k < 32 then hot w0 k else if k < 64 then hot w1 (k - 32) else hot w2 (k - 64)

/-- The linear layer applied to every position's features: entry (b, l, e) is the sum over k of
    feature k of (b, l) times W (e, k). -/
def emb (x0 x1 x2 : IVec ⟨2, ![64, 2048]⟩ 32) (W : FVec Ideal ⟨2, ![256, 128]⟩ .f32) :
    FVec Ideal ⟨3, ![64, 2048, 256]⟩ .f32 :=
  fun i => ∑ k : Fin 128,
    feat (x0 (ix2 (i 0) (i 1))) (x1 (ix2 (i 0) (i 1))) (x2 (ix2 (i 0) (i 1))) k.val * W (ix2 (i 2) k)

theorem hotArr_apply (N : ℕ) (x : IVec ⟨2, ![64, 2048]⟩ 32) (b : Fin 64) (l : Fin 2048) (n : Fin N) :
    hotArr N x (ix3 b l n) = hot (x (ix2 b l)) n.val := rfl

theorem emb_apply (x0 x1 x2 : IVec ⟨2, ![64, 2048]⟩ 32) (W : FVec Ideal ⟨2, ![256, 128]⟩ .f32)
    (b : Fin 64) (l : Fin 2048) (e : Fin 256) :
    emb x0 x1 x2 W (ix3 b l e)
      = ∑ k : Fin 128, feat (x0 (ix2 b l)) (x1 (ix2 b l)) (x2 (ix2 b l)) k.val * W (ix2 e k) := rfl

/-- An indicator array with its last two axes merged into one of M = 2048 · N entries: entry (b, l · N + n) is the
    indicator array's entry (b, l, n). -/
def merged (N M : ℕ) (h : (⟨3, ![64, 2048, N]⟩ : Shape).ShapeCasts ⟨2, ![64, M]⟩) (x : IVec ⟨2, ![64, 2048]⟩ 32) :
    FVec Ideal ⟨2, ![64, M]⟩ .f32 :=
  shapeCast ⟨2, ![64, M]⟩ (hotArr N x) h

theorem merged_apply (N M : ℕ) (hM : M = 2048 * N) (h : (⟨3, ![64, 2048, N]⟩ : Shape).ShapeCasts ⟨2, ![64, M]⟩)
    (x : IVec ⟨2, ![64, 2048]⟩ 32) (b : Fin 64) (j : Fin M) (l : Fin 2048) (n : Fin N)
    (hj : j.val = l.val * N + n.val) : merged N M h x (ix2 b j) = hot (x (ix2 b l)) n.val :=
  Cert.GroupCasts.shapeCast_grouped_rows_apply hM (hotArr N x) h b l n j hj

/-- The merged forms' shapes hold as many entries as the arrays they merge. -/
theorem casts32 : (⟨3, ![64, 2048, 32]⟩ : Shape).ShapeCasts ⟨2, ![64, 65536]⟩ := by decide
theorem casts64 : (⟨3, ![64, 2048, 64]⟩ : Shape).ShapeCasts ⟨2, ![64, 131072]⟩ := by decide

/-- Splitting the merged axis again gives the indicator array back. -/
theorem unmerged (N M : ℕ) (h : (⟨3, ![64, 2048, N]⟩ : Shape).ShapeCasts ⟨2, ![64, M]⟩)
    (h' : (⟨2, ![64, M]⟩ : Shape).ShapeCasts ⟨3, ![64, 2048, N]⟩) (x : IVec ⟨2, ![64, 2048]⟩ 32) :
    shapeCast ⟨3, ![64, 2048, N]⟩ (merged N M h x) h' = hotArr N x :=
  shapeCast_shapeCast (hotArr N x) h h'

end Cert.OneHotEmbed

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibCatLastAxis.lean ====
/-
  Three rank-three arrays [A, B, a], [A, B, b], [A, B, c] laid end to end along their LAST axis into one array
  [A, B, n], a + b + c = n, read at an index (i, j, k) by coordinates: the entry comes from the piece whose span
  holds k — the first for k < a, at (i, j, k); the second for a ≤ k < a + b, at (i, j, k - a); the third beyond,
  at (i, j, k - a - b). The caller names the coordinate inside the piece and gives the equation that places it
  (k = k', k = a + k', k = a + b + k'), so no subtraction appears in a statement. General in the extents and in
  the element type: a concatenation of feature groups along the feature axis, in a kernel's block or in a whole
  host array, is read the same way.
-/
import Idealize.ShloMosaic.Lib.Pipeline.Value
import Idealize.ShloMosaic.Lib.ValueIdx

namespace Cert.CatLastAxis

open Idealize.ShloMosaic Idealize.ShloMosaic.ValueIdx

variable {α : Type} {A B a b c n : ℕ}

/-- An entry in the first piece's span is the first piece's entry at the same coordinates. -/
theorem cat3_first (x : (⟨3, ![A, B, a]⟩ : Shape).Idx → α) (y : (⟨3, ![A, B, b]⟩ : Shape).Idx → α)
    (z : (⟨3, ![A, B, c]⟩ : Shape).Idx → α)
    (h : Shape.Concatenates [(⟨3, ![A, B, a]⟩ : Shape), ⟨3, ![A, B, b]⟩, ⟨3, ![A, B, c]⟩] ⟨3, ![A, B, n]⟩ 2)
    (i : Fin A) (j : Fin B) (k : Fin n) (k' : Fin a) (hk : k.val = k'.val) :
    concatenate ⟨3, ![A, B, n]⟩ 2 [⟨_, x⟩, ⟨_, y⟩, ⟨_, z⟩] h (ix3 i j k) = x (ix3 i j k') := by
  refine concatenate_apply_piece (t := ⟨3, ![A, B, n]⟩) 2 [⟨_, x⟩, ⟨_, y⟩, ⟨_, z⟩] h (ix3 i j k) 0 (by simp) _ x rfl rfl 0 rfl (ix3 i j k') (fun d hd => ?_) ?_
  · match d with
    | ⟨0, _⟩ => rfl
    | ⟨1, _⟩ => rfl
    | ⟨2, _⟩ => exact absurd rfl hd
  · show 0 + k'.val = k.val
    omega

/-- An entry in the second piece's span, k = a + k', is the second piece's entry at (i, j, k'). -/
theorem cat3_second (x : (⟨3, ![A, B, a]⟩ : Shape).Idx → α) (y : (⟨3, ![A, B, b]⟩ : Shape).Idx → α)
    (z : (⟨3, ![A, B, c]⟩ : Shape).Idx → α)
    (h : Shape.Concatenates [(⟨3, ![A, B, a]⟩ : Shape), ⟨3, ![A, B, b]⟩, ⟨3, ![A, B, c]⟩] ⟨3, ![A, B, n]⟩ 2)
    (i : Fin A) (j : Fin B) (k : Fin n) (k' : Fin b) (hk : k.val = a + k'.val) :
    concatenate ⟨3, ![A, B, n]⟩ 2 [⟨_, x⟩, ⟨_, y⟩, ⟨_, z⟩] h (ix3 i j k) = y (ix3 i j k') := by
  refine concatenate_apply_piece (t := ⟨3, ![A, B, n]⟩) 2 [⟨_, x⟩, ⟨_, y⟩, ⟨_, z⟩] h (ix3 i j k) 1 (by simp) _ y rfl rfl a (by simp) (ix3 i j k') (fun d hd => ?_) ?_
  · match d with
    | ⟨0, _⟩ => rfl
    | ⟨1, _⟩ => rfl
    | ⟨2, _⟩ => exact absurd rfl hd
  · show a + k'.val = k.val
    omega

/-- An entry in the third piece's span, k = a + b + k', is the third piece's entry at (i, j, k'). -/
theorem cat3_third (x : (⟨3, ![A, B, a]⟩ : Shape).Idx → α) (y : (⟨3, ![A, B, b]⟩ : Shape).Idx → α)
    (z : (⟨3, ![A, B, c]⟩ : Shape).Idx → α)
    (h : Shape.Concatenates [(⟨3, ![A, B, a]⟩ : Shape), ⟨3, ![A, B, b]⟩, ⟨3, ![A, B, c]⟩] ⟨3, ![A, B, n]⟩ 2)
    (i : Fin A) (j : Fin B) (k : Fin n) (k' : Fin c) (hk : k.val = a + b + k'.val) :
    concatenate ⟨3, ![A, B, n]⟩ 2 [⟨_, x⟩, ⟨_, y⟩, ⟨_, z⟩] h (ix3 i j k) = z (ix3 i j k') := by
  refine concatenate_apply_piece (t := ⟨3, ![A, B, n]⟩) 2 [⟨_, x⟩, ⟨_, y⟩, ⟨_, z⟩] h (ix3 i j k) 2 (by simp) _ z rfl rfl (a + b) (by simp) (ix3 i j k') (fun d hd => ?_) ?_
  · match d with
    | ⟨0, _⟩ => rfl
    | ⟨1, _⟩ => rfl
    | ⟨2, _⟩ => exact absurd rfl hd
  · show a + b + k'.val = k.val
    omega

end Cert.CatLastAxis
-- ==== Proof.KernelBlock.lean ====
/-
  The kernel body's four stored values, read at an index of their block, at the ideal values.

  At one grid point the body loads a block [32, 128] of each of the three integer arrays and the whole weight
  matrix (already transposed to [128, 256]). From a block v of words it builds the indicators
  (p, q, n) ↦ [v (p, q) is the category n] — the word compared with an iota along the last axis, the bit widened to a
  word and converted (`indicators_apply`: that is `hot`). The first three stores write those arrays with the last
  two axes merged, [32, 128 · N]: entry (p, q · N + n) is the indicator at (p, q, n). The fourth lays the three
  indicator arrays side by side along the last axis (128 features per position), merges the two leading axes into
  4096 rows, multiplies by the weights from a zero accumulator and splits the rows again: entry (p, q, o) is the sum
  over the features k of feature k of position (p, q) times the weight (k, o). Changes of float format are the
  identity here, and a cast of the weights to their own shape is the identity.
-/
import proofs.«168513_j1365799600731_2_alg».proof.Proof.Gen.KernelIdeal.Skeleton
import proofs.«168513_j1365799600731_2_alg».proof.Proof.Spec
import proofs.«168513_j1365799600731_2_alg».proof.Proof.LibAxisReads
import proofs.«168513_j1365799600731_2_alg».proof.Proof.LibGroupCasts
import proofs.«168513_j1365799600731_2_alg».proof.Proof.LibMatmulPlain
import proofs.«168513_j1365799600731_2_alg».proof.Proof.LibCatLastAxis
import Idealize.ShloMosaic.Lib.KernelVsHost

noncomputable section

namespace Cert.KernelIdeal.Block

open Cert.KernelIdeal Cert.KernelIdeal.Gen Cert.OneHotEmbed
open Idealize.ShloMosaic Idealize.ShloMosaic.ValueIdx
open scoped BigOperators

/-- A block of words compared with the categories 0 … N - 1 along a new last axis, the bit widened and converted:
    entry (p, q, n) is the indicator that the word at (p, q) is the category n. -/
theorem indicators_apply {N : ℕ} (v : IVec ⟨2, ![32, 128]⟩ 32)
    (hc : (⟨2, ![32, 128]⟩ : Shape).ShapeCasts ⟨3, ![32, 128, 1]⟩)
    (hb : (⟨3, ![32, 128, 1]⟩ : Shape).Broadcasts ⟨3, ![32, 128, N]⟩)
    (hi : (⟨3, ![32, 128, N]⟩ : Shape).Iotas .tc 32 [2]) (hw : 1 < 32)
    (p : Fin 32) (q : Fin 128) (n : Fin N) :
    (sitofp .f32 (extui 32 (cmpi .eq (broadcastTo ⟨3, ![32, 128, N]⟩ (shapeCast ⟨3, ![32, 128, 1]⟩ v hc) hb)
        (iota .tc ⟨3, ![32, 128, N]⟩ 32 [2] hi)) hw) : FVec Ideal ⟨3, ![32, 128, N]⟩ .f32) (ix3 p q n)
      = hot (v (ix2 p q)) n.val := by
  rw [sitofp_extui_eq_uitofp]
  have e5 : broadcastTo ⟨3, ![32, 128, N]⟩ (shapeCast ⟨3, ![32, 128, 1]⟩ v hc) hb (ix3 p q n) = v (ix2 p q) :=
    (Cert.AxisReads.broadcastTo_ab1_abc_apply _ hb p q n).trans (Cert.AxisReads.shapeCast_ab_ab1_apply v hc p q 0)
  have e4 : iota .tc ⟨3, ![32, 128, N]⟩ 32 [2] hi (ix3 p q n) = BitVec.ofNat 32 n.val :=
    iota_single_apply .tc _ 32 2 hi (ix3 p q n)
  show FloatOps.uitofp (F := Ideal) .f32 (IntOp.cmpi .eq
      (broadcastTo ⟨3, ![32, 128, N]⟩ (shapeCast ⟨3, ![32, 128, 1]⟩ v hc) hb (ix3 p q n))
      (iota .tc ⟨3, ![32, 128, N]⟩ 32 [2] hi (ix3 p q n))) = _
  rw [e5, e4]
  rfl

/-- The indicators of the first array's block over 32 categories. -/
theorem pay1_apply (v0 : Vec Ideal S32x128 .i32) (p : Fin 32) (q : Fin 128) (n : Fin 32) :
    k0_pay1 (F := Ideal) v0 (ix3 p q n) = hot (v0 (ix2 p q)) n.val := by
  unfold k0_pay1
  exact indicators_apply v0 _ _ _ _ p q n

/-- The indicators of the second array's block over 32 categories. -/
theorem pay2_apply (v1 : Vec Ideal S32x128 .i32) (p : Fin 32) (q : Fin 128) (n : Fin 32) :
    k0_pay2 (F := Ideal) v1 (ix3 p q n) = hot (v1 (ix2 p q)) n.val := by
  unfold k0_pay2
  exact indicators_apply v1 _ _ _ _ p q n

/-- The indicators of the third array's block over 64 categories. -/
theorem pay3_apply (v2 : Vec Ideal S32x128 .i32) (p : Fin 32) (q : Fin 128) (n : Fin 64) :
    k0_pay3 (F := Ideal) v2 (ix3 p q n) = hot (v2 (ix2 p q)) n.val := by
  unfold k0_pay3
  exact indicators_apply v2 _ _ _ _ p q n

/-- The first store: the indicators with positions and categories merged into one axis of 128 · 32 entries. -/
theorem pay4_apply (v0 : Vec Ideal S32x128 .i32) (p : Fin 32) (j : Fin 4096) (q : Fin 128) (n : Fin 32)
    (hj : j.val = q.val * 32 + n.val) : k0_pay4 (F := Ideal) v0 (ix2 p j) = hot (v0 (ix2 p q)) n.val := by
  unfold k0_pay4
  exact (Cert.GroupCasts.shapeCast_grouped_rows_apply (by norm_num) (k0_pay1 v0) _ p q n j hj).trans (pay1_apply v0 p q n)

/-- The second store, likewise. -/
theorem pay5_apply (v1 : Vec Ideal S32x128 .i32) (p : Fin 32) (j : Fin 4096) (q : Fin 128) (n : Fin 32)
    (hj : j.val = q.val * 32 + n.val) : k0_pay5 (F := Ideal) v1 (ix2 p j) = hot (v1 (ix2 p q)) n.val := by
  unfold k0_pay5
  exact (Cert.GroupCasts.shapeCast_grouped_rows_apply (by norm_num) (k0_pay2 v1) _ p q n j hj).trans (pay2_apply v1 p q n)

/-- The third store: 64 categories, 128 · 64 entries. -/
theorem pay6_apply (v2 : Vec Ideal S32x128 .i32) (p : Fin 32) (j : Fin 8192) (q : Fin 128) (n : Fin 64)
    (hj : j.val = q.val * 64 + n.val) : k0_pay6 (F := Ideal) v2 (ix2 p j) = hot (v2 (ix2 p q)) n.val := by
  unfold k0_pay6
  exact (Cert.GroupCasts.shapeCast_grouped_rows_apply (by norm_num) (k0_pay3 v2) _ p q n j hj).trans (pay3_apply v2 p q n)

/-- The fourth store: the linear layer on the block. Entry (p, q, o) is the sum over the 128 features of position
    (p, q) — the three indicator rows side by side — each times the weight (k, o). -/
theorem pay7_apply (v0 v1 v2 : Vec Ideal S32x128 .i32) (w : Vec Ideal S128x256 .bf16)
    (p : Fin 32) (q : Fin 128) (o : Fin 256) :
    k0_pay7 (F := Ideal) v0 v1 v2 w (ix3 p q o)
      = ∑ k : Fin 128, feat (v0 (ix2 p q)) (v1 (ix2 p q)) (v2 (ix2 p q)) k.val * w (ix2 k o) := by
  unfold k0_pay7
  have hr : p.val * 128 + q.val < 4096 := by omega
  refine (Cert.AxisReads.shapeCast_tall_stack_apply _ _ ⟨p.val * 128 + q.val, hr⟩ p q o rfl).trans ?_
  refine (Cert.MatmulPlain.matmul_plain_apply dot_S4096x128_S128x256_S4096x256_1_0_0_1_n_n rfl rfl rfl rfl rfl rfl
    none _ _ ⟨p.val * 128 + q.val, hr⟩ o).trans ?_
  refine Finset.sum_congr rfl fun k _ => ?_
  congr 1
  · refine (Cert.AxisReads.shapeCast_stack_tall_apply _ _ ⟨p.val * 128 + q.val, hr⟩ p q k rfl).trans ?_
    unfold feat
    by_cases h1 : k.val < 32
    · rw [if_pos h1]
      exact (Cert.CatLastAxis.cat3_first _ _ _ _ p q k ⟨k.val, h1⟩ rfl).trans (pay1_apply v0 p q ⟨k.val, h1⟩)
    · rw [if_neg h1]
      by_cases h2 : k.val < 64
      · rw [if_pos h2]
        exact (Cert.CatLastAxis.cat3_second _ _ _ _ p q k ⟨k.val - 32, by omega⟩
          (by show k.val = 32 + (k.val - 32); omega)).trans (pay2_apply v1 p q ⟨k.val - 32, by omega⟩)
      · rw [if_neg h2]
        have hk : k.val < 128 := k.isLt
        exact (Cert.CatLastAxis.cat3_third _ _ _ _ p q k ⟨k.val - 64, by omega⟩
          (by show k.val = 32 + 32 + (k.val - 64); omega)).trans (pay3_apply v2 p q ⟨k.val - 64, by omega⟩)
  · exact congrFun (shapeCast_self w _) (ix2 k o)

end Cert.KernelIdeal.Block

end
-- ==== Proof.ArrayFirst.lean ====
/-
  The first output array after the region: the indicator array of the first integer argument over 32 categories,
  with positions and categories merged into one axis of 65536 entries.

  At the grid point with block position (t0, t1) the body's store fills the block [32, 4096] whose entry
  (p, j) is the indicator that the word at (p, j / 32) of the integer block is the category j % 32; that word is
  the array's entry (32 t0 + p, 128 t1 + j / 32), and the block's entry lands in the output array at
  (32 t0 + p, 4096 t1 + j) = (b, l · 32 + n) with b = 32 t0 + p, l = 128 t1 + j / 32, n = j % 32: the merged
  indicator array's entry. The 32 blocks tile the array (the block holding (b, j) is (b / 32, j / 4096)), so
  after the write-backs the array is that function everywhere.
-/
import proofs.«168513_j1365799600731_2_alg».proof.Proof.KernelReads
import proofs.«168513_j1365799600731_2_alg».proof.Proof.KernelBlock

set_option maxRecDepth 16384

noncomputable section

namespace Cert.KernelIdeal.Arrays

open Cert.KernelIdeal Cert.KernelIdeal.Gen Cert.KernelIdeal.Reads Cert.KernelIdeal.Block Cert.OneHotEmbed
open Idealize.ShloMosaic Idealize.ShloMosaic.TcCoe Idealize.ShloMosaic.ValueIdx Idealize.SL.Sem

variable (m : (ℓ : Loc nD τ sig) → Buf (Elt Ideal) ℓ)

/-- What point t writes back to the first output's array is block t of the merged indicator array of the
    first argument. -/
theorem flushed4_eq (c : Dev nD) (t : Fin cfg0.N) :
    (dats m 0 c).flushed 4 t
      = ((cfg0.win 4).blk t).view.read (Elt Ideal) (merged 32 65536 casts32 (m ((c : Thread nD τ).loc main_arg0))) := by
  show (cfg0.win 4).cut (grid0.coords t) ((dats m 0 c).after 4 t) = _
  rw [after0_4]
  unfold out0_4
  rw [View.canon_unit_zero hz2]
  simp only [View.ld_unit_zero (S := S32x128) hz2]
  obtain ⟨-, -, -, -, -, -, -, -, e50, e51, e60, e61, -, -, -, b0, b1⟩ := idx_facts t
  funext y
  obtain ⟨p, j, rfl⟩ : ∃ (p : Fin 32) (j : Fin 4096), y = ix2 p j := ⟨y 0, y 1, eq_ix2 y⟩
  have hp : p.val < 32 := p.isLt
  have hj : j.val < 4096 := j.isLt
  obtain ⟨q, hq⟩ : ∃ q : Fin 128, q.val = j.val / 32 := ⟨⟨j.val / 32, by omega⟩, rfl⟩
  obtain ⟨n, hn⟩ : ∃ n : Fin 32, n.val = j.val % 32 := ⟨⟨j.val % 32, by omega⟩, rfl⟩
  have hq' : q.val < 128 := q.isLt
  obtain ⟨B, hB⟩ : ∃ B : Fin 64, B.val = win0_4.index t (0 : Fin 2) * 32 + p.val :=
    ⟨⟨win0_4.index t (0 : Fin 2) * 32 + p.val, by omega⟩, rfl⟩
  obtain ⟨L, hL⟩ : ∃ L : Fin 2048, L.val = win0_4.index t (1 : Fin 2) * 128 + q.val :=
    ⟨⟨win0_4.index t (1 : Fin 2) * 128 + q.val, by omega⟩, rfl⟩
  obtain ⟨J, hJ⟩ : ∃ J : Fin 65536, J.val = win0_4.index t (1 : Fin 2) * 4096 + j.val :=
    ⟨⟨win0_4.index t (1 : Fin 2) * 4096 + j.val, by omega⟩, rfl⟩
  show k0_pay4 (iblk m c 0 t) (ix2 p j)
      = merged 32 65536 casts32 (m ((c : Thread nD τ).loc main_arg0)) (((cfg0.win 4).blk t).view.emb (ix2 p j))
  have he : ((cfg0.win 4).blk t).view.emb (ix2 p j) = ix2 B J := funext fun a => Fin.ext (by
    match a with
    | ⟨0, _⟩ => show win0_4.index t (0 : Fin 2) * 32 + 1 * p.val = B.val; omega
    | ⟨1, _⟩ => show win0_4.index t (1 : Fin 2) * 4096 + 1 * j.val = J.val; omega)
  rw [he]
  refine (pay4_apply (iblk m c 0 t) p j q n (by omega)).trans ?_
  rw [iblk0_apply m c t p q B L hB hL]
  exact (merged_apply 32 65536 (by norm_num) casts32 _ B J L n (by omega)).symm

/-- An index of the array is in point t's block iff each coordinate is in the block's range on its axis. -/
theorem mem_blk4 (t : Fin cfg0.N) (i : S64x65536.Idx) :
    i ∈ ((cfg0.win 4).blk t).view.set ↔ ∀ a : Fin 2, win0_4.index t a * S32x4096.size a ≤ (i a).val
      ∧ (i a).val < win0_4.index t a * S32x4096.size a + S32x4096.size a := by
  show i ∈ ((View.whole main_v2_0).slice (win0_4.rect t)).set ↔ _
  rw [View.set_slice_whole, Rect.mem_set_unit]
  exact Iff.rfl

/-- Every index of the array is in some point's block: the blocks tile it. -/
theorem cover4 (i : S64x65536.Idx) :
    ∃ t : Fin cfg0.N, (cfg0.win 4).flush t = true ∧ i ∈ ((cfg0.win 4).blk t).view.set := by
  have hi0 : (i 0).val < 64 := (i 0).isLt
  have hi1 : (i 1).val < 65536 := (i 1).isLt
  obtain ⟨t, ht⟩ := idx_onto ⟨(i 0).val / 32, by omega⟩ ⟨(i 1).val / 4096, by omega⟩
  have q0 : win0_4.index t (0 : Fin 2) = (i 0).val / 32 := congrFun ht 0
  have q1 : win0_4.index t (1 : Fin 2) = (i 1).val / 4096 := congrFun ht 1
  obtain ⟨-, -, -, -, -, -, -, -, e50, e51, e60, e61, -⟩ := idx_facts t
  refine ⟨t, flush0_4 t, ?_⟩
  rw [mem_blk4]
  intro a
  match a with
  | ⟨0, _⟩ =>
    show win0_4.index t (0 : Fin 2) * 32 ≤ (i 0).val ∧ (i 0).val < win0_4.index t (0 : Fin 2) * 32 + 32
    omega
  | ⟨1, _⟩ =>
    show win0_4.index t (1 : Fin 2) * 4096 ≤ (i 1).val ∧ (i 1).val < win0_4.index t (1 : Fin 2) * 4096 + 4096
    omega

/-- The first output's array after the region. -/
theorem final4 (c : Dev nD) :
    (dats m 0 c).arrAt 4 cfg0.N = merged 32 65536 casts32 (m ((c : Thread nD τ).loc main_arg0)) :=
  (dats m 0 c).arrAt_eq_of_cover 4 _ (fun t _ => flushed4_eq m c t) cover4

end Cert.KernelIdeal.Arrays

end
-- ==== Proof.ArraySecond.lean ====
/-
  The second output array after the region: the indicator array of the second integer argument over 32 categories,
  with positions and categories merged into one axis of 65536 entries.

  At the grid point with block position (t0, t1) the body's store fills the block [32, 4096] whose entry
  (p, j) is the indicator that the word at (p, j / 32) of the integer block is the category j % 32; that word is
  the array's entry (32 t0 + p, 128 t1 + j / 32), and the block's entry lands in the output array at
  (32 t0 + p, 4096 t1 + j) = (b, l · 32 + n) with b = 32 t0 + p, l = 128 t1 + j / 32, n = j % 32: the merged
  indicator array's entry. The 32 blocks tile the array (the block holding (b, j) is (b / 32, j / 4096)), so
  after the write-backs the array is that function everywhere.
-/
import proofs.«168513_j1365799600731_2_alg».proof.Proof.KernelReads
import proofs.«168513_j1365799600731_2_alg».proof.Proof.KernelBlock

set_option maxRecDepth 16384

noncomputable section

namespace Cert.KernelIdeal.Arrays

open Cert.KernelIdeal Cert.KernelIdeal.Gen Cert.KernelIdeal.Reads Cert.KernelIdeal.Block Cert.OneHotEmbed
open Idealize.ShloMosaic Idealize.ShloMosaic.TcCoe Idealize.ShloMosaic.ValueIdx Idealize.SL.Sem

variable (m : (ℓ : Loc nD τ sig) → Buf (Elt Ideal) ℓ)

/-- What point t writes back to the second output's array is block t of the merged indicator array of the
    second argument. -/
theorem flushed5_eq (c : Dev nD) (t : Fin cfg0.N) :
    (dats m 0 c).flushed 5 t
      = ((cfg0.win 5).blk t).view.read (Elt Ideal) (merged 32 65536 casts32 (m ((c : Thread nD τ).loc main_arg1))) := by
  show (cfg0.win 5).cut (grid0.coords t) ((dats m 0 c).after 5 t) = _
  rw [after0_5]
  unfold out0_5
  rw [View.canon_unit_zero hz2]
  simp only [View.ld_unit_zero (S := S32x128) hz2]
  obtain ⟨-, -, -, -, -, -, -, -, e50, e51, e60, e61, -, -, -, b0, b1⟩ := idx_facts t
  funext y
  obtain ⟨p, j, rfl⟩ : ∃ (p : Fin 32) (j : Fin 4096), y = ix2 p j := ⟨y 0, y 1, eq_ix2 y⟩
  have hp : p.val < 32 := p.isLt
  have hj : j.val < 4096 := j.isLt
  obtain ⟨q, hq⟩ : ∃ q : Fin 128, q.val = j.val / 32 := ⟨⟨j.val / 32, by omega⟩, rfl⟩
  obtain ⟨n, hn⟩ : ∃ n : Fin 32, n.val = j.val % 32 := ⟨⟨j.val % 32, by omega⟩, rfl⟩
  have hq' : q.val < 128 := q.isLt
  obtain ⟨B, hB⟩ : ∃ B : Fin 64, B.val = win0_4.index t (0 : Fin 2) * 32 + p.val :=
    ⟨⟨win0_4.index t (0 : Fin 2) * 32 + p.val, by omega⟩, rfl⟩
  obtain ⟨L, hL⟩ : ∃ L : Fin 2048, L.val = win0_4.index t (1 : Fin 2) * 128 + q.val :=
    ⟨⟨win0_4.index t (1 : Fin 2) * 128 + q.val, by omega⟩, rfl⟩
  obtain ⟨J, hJ⟩ : ∃ J : Fin 65536, J.val = win0_4.index t (1 : Fin 2) * 4096 + j.val :=
    ⟨⟨win0_4.index t (1 : Fin 2) * 4096 + j.val, by omega⟩, rfl⟩
  show k0_pay5 (iblk m c 1 t) (ix2 p j)
      = merged 32 65536 casts32 (m ((c : Thread nD τ).loc main_arg1)) (((cfg0.win 5).blk t).view.emb (ix2 p j))
  have he : ((cfg0.win 5).blk t).view.emb (ix2 p j) = ix2 B J := funext fun a => Fin.ext (by
    match a with
    | ⟨0, _⟩ => show win0_5.index t (0 : Fin 2) * 32 + 1 * p.val = B.val; omega
    | ⟨1, _⟩ => show win0_5.index t (1 : Fin 2) * 4096 + 1 * j.val = J.val; omega)
  rw [he]
  refine (pay5_apply (iblk m c 1 t) p j q n (by omega)).trans ?_
  rw [iblk1_apply m c t p q B L hB hL]
  exact (merged_apply 32 65536 (by norm_num) casts32 _ B J L n (by omega)).symm

/-- An index of the array is in point t's block iff each coordinate is in the block's range on its axis. -/
theorem mem_blk5 (t : Fin cfg0.N) (i : S64x65536.Idx) :
    i ∈ ((cfg0.win 5).blk t).view.set ↔ ∀ a : Fin 2, win0_5.index t a * S32x4096.size a ≤ (i a).val
      ∧ (i a).val < win0_5.index t a * S32x4096.size a + S32x4096.size a := by
  show i ∈ ((View.whole main_v2_1).slice (win0_5.rect t)).set ↔ _
  rw [View.set_slice_whole, Rect.mem_set_unit]
  exact Iff.rfl

/-- Every index of the array is in some point's block: the blocks tile it. -/
theorem cover5 (i : S64x65536.Idx) :
    ∃ t : Fin cfg0.N, (cfg0.win 5).flush t = true ∧ i ∈ ((cfg0.win 5).blk t).view.set := by
  have hi0 : (i 0).val < 64 := (i 0).isLt
  have hi1 : (i 1).val < 65536 := (i 1).isLt
  obtain ⟨t, ht⟩ := idx_onto ⟨(i 0).val / 32, by omega⟩ ⟨(i 1).val / 4096, by omega⟩
  have q0 : win0_4.index t (0 : Fin 2) = (i 0).val / 32 := congrFun ht 0
  have q1 : win0_4.index t (1 : Fin 2) = (i 1).val / 4096 := congrFun ht 1
  obtain ⟨-, -, -, -, -, -, -, -, e50, e51, e60, e61, -⟩ := idx_facts t
  refine ⟨t, flush0_5 t, ?_⟩
  rw [mem_blk5]
  intro a
  match a with
  | ⟨0, _⟩ =>
    show win0_5.index t (0 : Fin 2) * 32 ≤ (i 0).val ∧ (i 0).val < win0_5.index t (0 : Fin 2) * 32 + 32
    omega
  | ⟨1, _⟩ =>
    show win0_5.index t (1 : Fin 2) * 4096 ≤ (i 1).val ∧ (i 1).val < win0_5.index t (1 : Fin 2) * 4096 + 4096
    omega

/-- The second output's array after the region. -/
theorem final5 (c : Dev nD) :
    (dats m 0 c).arrAt 5 cfg0.N = merged 32 65536 casts32 (m ((c : Thread nD τ).loc main_arg1)) :=
  (dats m 0 c).arrAt_eq_of_cover 5 _ (fun t _ => flushed5_eq m c t) cover5

end Cert.KernelIdeal.Arrays

end
-- ==== Proof.ArrayThird.lean ====
/-
  The third output array after the region: the indicator array of the third integer argument over 64 categories,
  with positions and categories merged into one axis of 131072 entries.

  At the grid point with block position (t0, t1) the body's store fills the block [32, 8192] whose entry
  (p, j) is the indicator that the word at (p, j / 64) of the integer block is the category j % 64; that word is
  the array's entry (32 t0 + p, 128 t1 + j / 64), and the block's entry lands in the output array at
  (32 t0 + p, 8192 t1 + j) = (b, l · 64 + n) with b = 32 t0 + p, l = 128 t1 + j / 64, n = j % 64: the merged
  indicator array's entry. The 32 blocks tile the array (the block holding (b, j) is (b / 32, j / 8192)), so
  after the write-backs the array is that function everywhere.
-/
import proofs.«168513_j1365799600731_2_alg».proof.Proof.KernelReads
import proofs.«168513_j1365799600731_2_alg».proof.Proof.KernelBlock

set_option maxRecDepth 16384

noncomputable section

namespace Cert.KernelIdeal.Arrays

open Cert.KernelIdeal Cert.KernelIdeal.Gen Cert.KernelIdeal.Reads Cert.KernelIdeal.Block Cert.OneHotEmbed
open Idealize.ShloMosaic Idealize.ShloMosaic.TcCoe Idealize.ShloMosaic.ValueIdx Idealize.SL.Sem

variable (m : (ℓ : Loc nD τ sig) → Buf (Elt Ideal) ℓ)

/-- What point t writes back to the third output's array is block t of the merged indicator array of the
    third argument. -/
theorem flushed6_eq (c : Dev nD) (t : Fin cfg0.N) :
    (dats m 0 c).flushed 6 t
      = ((cfg0.win 6).blk t).view.read (Elt Ideal) (merged 64 131072 casts64 (m ((c : Thread nD τ).loc main_arg2))) := by
  show (cfg0.win 6).cut (grid0.coords t) ((dats m 0 c).after 6 t) = _
  rw [after0_6]
  unfold out0_6
  rw [View.canon_unit_zero hz2]
  simp only [View.ld_unit_zero (S := S32x128) hz2]
  obtain ⟨-, -, -, -, -, -, -, -, e50, e51, e60, e61, -, -, -, b0, b1⟩ := idx_facts t
  funext y
  obtain ⟨p, j, rfl⟩ : ∃ (p : Fin 32) (j : Fin 8192), y = ix2 p j := ⟨y 0, y 1, eq_ix2 y⟩
  have hp : p.val < 32 := p.isLt
  have hj : j.val < 8192 := j.isLt
  obtain ⟨q, hq⟩ : ∃ q : Fin 128, q.val = j.val / 64 := ⟨⟨j.val / 64, by omega⟩, rfl⟩
  obtain ⟨n, hn⟩ : ∃ n : Fin 64, n.val = j.val % 64 := ⟨⟨j.val % 64, by omega⟩, rfl⟩
  have hq' : q.val < 128 := q.isLt
  obtain ⟨B, hB⟩ : ∃ B : Fin 64, B.val = win0_4.index t (0 : Fin 2) * 32 + p.val :=
    ⟨⟨win0_4.index t (0 : Fin 2) * 32 + p.val, by omega⟩, rfl⟩
  obtain ⟨L, hL⟩ : ∃ L : Fin 2048, L.val = win0_4.index t (1 : Fin 2) * 128 + q.val :=
    ⟨⟨win0_4.index t (1 : Fin 2) * 128 + q.val, by omega⟩, rfl⟩
  obtain ⟨J, hJ⟩ : ∃ J : Fin 131072, J.val = win0_4.index t (1 : Fin 2) * 8192 + j.val :=
    ⟨⟨win0_4.index t (1 : Fin 2) * 8192 + j.val, by omega⟩, rfl⟩
  show k0_pay6 (iblk m c 2 t) (ix2 p j)
      = merged 64 131072 casts64 (m ((c : Thread nD τ).loc main_arg2)) (((cfg0.win 6).blk t).view.emb (ix2 p j))
  have he : ((cfg0.win 6).blk t).view.emb (ix2 p j) = ix2 B J := funext fun a => Fin.ext (by
    match a with
    | ⟨0, _⟩ => show win0_6.index t (0 : Fin 2) * 32 + 1 * p.val = B.val; omega
    | ⟨1, _⟩ => show win0_6.index t (1 : Fin 2) * 8192 + 1 * j.val = J.val; omega)
  rw [he]
  refine (pay6_apply (iblk m c 2 t) p j q n (by omega)).trans ?_
  rw [iblk2_apply m c t p q B L hB hL]
  exact (merged_apply 64 131072 (by norm_num) casts64 _ B J L n (by omega)).symm

/-- An index of the array is in point t's block iff each coordinate is in the block's range on its axis. -/
theorem mem_blk6 (t : Fin cfg0.N) (i : S64x131072.Idx) :
    i ∈ ((cfg0.win 6).blk t).view.set ↔ ∀ a : Fin 2, win0_6.index t a * S32x8192.size a ≤ (i a).val
      ∧ (i a).val < win0_6.index t a * S32x8192.size a + S32x8192.size a := by
  show i ∈ ((View.whole main_v2_2).slice (win0_6.rect t)).set ↔ _
  rw [View.set_slice_whole, Rect.mem_set_unit]
  exact Iff.rfl

/-- Every index of the array is in some point's block: the blocks tile it. -/
theorem cover6 (i : S64x131072.Idx) :
    ∃ t : Fin cfg0.N, (cfg0.win 6).flush t = true ∧ i ∈ ((cfg0.win 6).blk t).view.set := by
  have hi0 : (i 0).val < 64 := (i 0).isLt
  have hi1 : (i 1).val < 131072 := (i 1).isLt
  obtain ⟨t, ht⟩ := idx_onto ⟨(i 0).val / 32, by omega⟩ ⟨(i 1).val / 8192, by omega⟩
  have q0 : win0_4.index t (0 : Fin 2) = (i 0).val / 32 := congrFun ht 0
  have q1 : win0_4.index t (1 : Fin 2) = (i 1).val / 8192 := congrFun ht 1
  obtain ⟨-, -, -, -, -, -, -, -, e50, e51, e60, e61, -⟩ := idx_facts t
  refine ⟨t, flush0_6 t, ?_⟩
  rw [mem_blk6]
  intro a
  match a with
  | ⟨0, _⟩ =>
    show win0_6.index t (0 : Fin 2) * 32 ≤ (i 0).val ∧ (i 0).val < win0_6.index t (0 : Fin 2) * 32 + 32
    omega
  | ⟨1, _⟩ =>
    show win0_6.index t (1 : Fin 2) * 8192 ≤ (i 1).val ∧ (i 1).val < win0_6.index t (1 : Fin 2) * 8192 + 8192
    omega

/-- The third output's array after the region. -/
theorem final6 (c : Dev nD) :
    (dats m 0 c).arrAt 6 cfg0.N = merged 64 131072 casts64 (m ((c : Thread nD τ).loc main_arg2)) :=
  (dats m 0 c).arrAt_eq_of_cover 6 _ (fun t _ => flushed6_eq m c t) cover6

end Cert.KernelIdeal.Arrays

end
-- ==== Proof.ArrayFourth.lean ====
/-
  The fourth output array after the region: the linear layer applied to every position's 128 features.

  At the grid point with block position (t0, t1) the body's last store fills the block [32, 128, 256] whose entry
  (p, q, o) is the sum over the features k of feature k of the three words at (p, q) of the integer blocks times
  the weights' entry (k, o). Those words are the arrays' entries at (b, l) = (32 t0 + p, 128 t1 + q), the weights'
  entry (k, o) is W (o, k), and the block's entry lands in the output array at (b, l, o): the specification's
  entry. The 32 blocks tile the array (the block holding (b, l, o) is (b / 32, l / 128, 0)).
-/
import proofs.«168513_j1365799600731_2_alg».proof.Proof.KernelReads
import proofs.«168513_j1365799600731_2_alg».proof.Proof.KernelBlock

set_option maxRecDepth 16384

noncomputable section

namespace Cert.KernelIdeal.Arrays

open Cert.KernelIdeal Cert.KernelIdeal.Gen Cert.KernelIdeal.Reads Cert.KernelIdeal.Block Cert.OneHotEmbed
open Idealize.ShloMosaic Idealize.ShloMosaic.TcCoe Idealize.ShloMosaic.ValueIdx Idealize.SL.Sem
open scoped BigOperators

variable (m : (ℓ : Loc nD τ sig) → Buf (Elt Ideal) ℓ)

/-- What point t writes back to the fourth output's array is block t of the linear layer's result. -/
theorem flushed7_eq (c : Dev nD) (t : Fin cfg0.N) :
    (dats m 0 c).flushed 7 t
      = ((cfg0.win 7).blk t).view.read (Elt Ideal)
          (emb (m ((c : Thread nD τ).loc main_arg0)) (m ((c : Thread nD τ).loc main_arg1))
            (m ((c : Thread nD τ).loc main_arg2)) (m ((c : Thread nD τ).loc main_arg3))) := by
  show (cfg0.win 7).cut (grid0.coords t) ((dats m 0 c).after 7 t) = _
  rw [after0_7]
  unfold out0_7
  rw [View.canon_unit_zero hz3]
  simp only [View.ld_unit_zero (S := S32x128) hz2, View.ld_unit_zero (S := S128x256) hz2]
  obtain ⟨-, -, -, -, -, -, -, -, -, -, -, -, e70, e71, e72, b0, b1⟩ := idx_facts t
  funext y
  obtain ⟨p, q, o, rfl⟩ : ∃ (p : Fin 32) (q : Fin 128) (o : Fin 256), y = ix3 p q o := ⟨y 0, y 1, y 2, eq_ix3 y⟩
  have hp : p.val < 32 := p.isLt
  have hq : q.val < 128 := q.isLt
  obtain ⟨B, hB⟩ : ∃ B : Fin 64, B.val = win0_4.index t (0 : Fin 2) * 32 + p.val :=
    ⟨⟨win0_4.index t (0 : Fin 2) * 32 + p.val, by omega⟩, rfl⟩
  obtain ⟨L, hL⟩ : ∃ L : Fin 2048, L.val = win0_4.index t (1 : Fin 2) * 128 + q.val :=
    ⟨⟨win0_4.index t (1 : Fin 2) * 128 + q.val, by omega⟩, rfl⟩
  show k0_pay7 (iblk m c 0 t) (iblk m c 1 t) (iblk m c 2 t) (iblk m c 3 t) (ix3 p q o)
      = emb (m ((c : Thread nD τ).loc main_arg0)) (m ((c : Thread nD τ).loc main_arg1))
          (m ((c : Thread nD τ).loc main_arg2)) (m ((c : Thread nD τ).loc main_arg3))
          (((cfg0.win 7).blk t).view.emb (ix3 p q o))
  have he : ((cfg0.win 7).blk t).view.emb (ix3 p q o) = ix3 B L o := funext fun a => Fin.ext (by
    match a with
    | ⟨0, _⟩ => show win0_7.index t (0 : Fin 3) * 32 + 1 * p.val = B.val; omega
    | ⟨1, _⟩ => show win0_7.index t (1 : Fin 3) * 128 + 1 * q.val = L.val; omega
    | ⟨2, _⟩ => show win0_7.index t (2 : Fin 3) * 256 + 1 * o.val = o.val; omega)
  rw [he, emb_apply]
  refine (pay7_apply (iblk m c 0 t) (iblk m c 1 t) (iblk m c 2 t) (iblk m c 3 t) p q o).trans ?_
  refine Finset.sum_congr rfl fun k _ => ?_
  rw [iblk0_apply m c t p q B L hB hL, iblk1_apply m c t p q B L hB hL, iblk2_apply m c t p q B L hB hL,
    wblk_apply m c t k o]

/-- An index of the array is in point t's block iff each coordinate is in the block's range on its axis. -/
theorem mem_blk7 (t : Fin cfg0.N) (i : S64x2048x256.Idx) :
    i ∈ ((cfg0.win 7).blk t).view.set ↔ ∀ a : Fin 3, win0_7.index t a * S32x128x256.size a ≤ (i a).val
      ∧ (i a).val < win0_7.index t a * S32x128x256.size a + S32x128x256.size a := by
  show i ∈ ((View.whole main_v2_3).slice (win0_7.rect t)).set ↔ _
  rw [View.set_slice_whole, Rect.mem_set_unit]
  exact Iff.rfl

/-- Every index of the array is in some point's block: the blocks tile it. -/
theorem cover7 (i : S64x2048x256.Idx) :
    ∃ t : Fin cfg0.N, (cfg0.win 7).flush t = true ∧ i ∈ ((cfg0.win 7).blk t).view.set := by
  have hi0 : (i 0).val < 64 := (i 0).isLt
  have hi1 : (i 1).val < 2048 := (i 1).isLt
  have hi2 : (i 2).val < 256 := (i 2).isLt
  obtain ⟨t, ht⟩ := idx_onto ⟨(i 0).val / 32, by omega⟩ ⟨(i 1).val / 128, by omega⟩
  have q0 : win0_4.index t (0 : Fin 2) = (i 0).val / 32 := congrFun ht 0
  have q1 : win0_4.index t (1 : Fin 2) = (i 1).val / 128 := congrFun ht 1
  obtain ⟨-, -, -, -, -, -, -, -, -, -, -, -, e70, e71, e72, -⟩ := idx_facts t
  refine ⟨t, flush0_7 t, ?_⟩
  rw [mem_blk7]
  intro a
  match a with
  | ⟨0, _⟩ =>
    show win0_7.index t (0 : Fin 3) * 32 ≤ (i 0).val ∧ (i 0).val < win0_7.index t (0 : Fin 3) * 32 + 32
    omega
  | ⟨1, _⟩ =>
    show win0_7.index t (1 : Fin 3) * 128 ≤ (i 1).val ∧ (i 1).val < win0_7.index t (1 : Fin 3) * 128 + 128
    omega
  | ⟨2, _⟩ =>
    show win0_7.index t (2 : Fin 3) * 256 ≤ (i 2).val ∧ (i 2).val < win0_7.index t (2 : Fin 3) * 256 + 256
    omega

/-- The fourth output's array after the region. -/
theorem final7 (c : Dev nD) :
    (dats m 0 c).arrAt 7 cfg0.N
      = emb (m ((c : Thread nD τ).loc main_arg0)) (m ((c : Thread nD τ).loc main_arg1))
          (m ((c : Thread nD τ).loc main_arg2)) (m ((c : Thread nD τ).loc main_arg3)) :=
  (dats m 0 c).arrAt_eq_of_cover 7 _ (fun t _ => flushed7_eq m c t) cover7

end Cert.KernelIdeal.Arrays

end
-- ==== Proof.KernelRun.lean ====
/-
  The idealized kernel's run, with every result named.

  The region leaves its four output arrays at the functions the array modules establish: the three merged
  indicator arrays and the linear layer's result. The three host reshapes after the region split the merged axes
  again, so the first three results are the indicator arrays themselves; the fourth result is the fourth output
  array. The argument arrays end as launched: the integer arrays are staged by input windows that never write
  back, and no host operation writes the weights.
-/
import proofs.«168513_j1365799600731_2_alg».proof.Proof.ArrayFirst
import proofs.«168513_j1365799600731_2_alg».proof.Proof.ArraySecond
import proofs.«168513_j1365799600731_2_alg».proof.Proof.ArrayThird
import proofs.«168513_j1365799600731_2_alg».proof.Proof.ArrayFourth

set_option maxRecDepth 16384

noncomputable section

namespace Cert.KernelIdeal.RunValue

open Cert.KernelIdeal Cert.KernelIdeal.Gen Cert.KernelIdeal.Reads Cert.KernelIdeal.Arrays Cert.OneHotEmbed
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The host's reshape of the first output array splits the merged axis: the result is the indicator array. -/
theorem tail_main_v3 (c : Dev nD) :
    Pipeline.afterTail₀ cfgs (dats m) 0 (V0 m) [hostOps1] c main_v3 = hotArr 32 (m ((c : Thread nD τ).loc main_arg0)) := by
  have hA : Pipeline.withArrays (cfgs 0).spec c (V0 m c) (fun w => (dats m 0 c).arrAt w (cfgs 0).N) (Proc.devRef .tc main_v2_0)
      = merged 32 65536 casts32 (m ((c : Thread nD τ).loc main_arg0)) :=
    (Pipeline.withArrays_arr spec0 launch0.win.arr_inj c _ _ 4).trans (final4 m c)
  unfold Pipeline.afterTail₀
  show StableHlo.after hostOps1 _ (Proc.devRef .tc main_v3) = _
  after_results
  rw [hA]
  exact unmerged 32 65536 casts32 shapeCasts_S64x65536_S64x2048x32 _

/-- The host's reshape of the second output array splits the merged axis: the result is the indicator array. -/
theorem tail_main_v4 (c : Dev nD) :
    Pipeline.afterTail₀ cfgs (dats m) 0 (V0 m) [hostOps1] c main_v4 = hotArr 32 (m ((c : Thread nD τ).loc main_arg1)) := by
  have hA : Pipeline.withArrays (cfgs 0).spec c (V0 m c) (fun w => (dats m 0 c).arrAt w (cfgs 0).N) (Proc.devRef .tc main_v2_1)
      = merged 32 65536 casts32 (m ((c : Thread nD τ).loc main_arg1)) :=
    (Pipeline.withArrays_arr spec0 launch0.win.arr_inj c _ _ 5).trans (final5 m c)
  unfold Pipeline.afterTail₀
  show StableHlo.after hostOps1 _ (Proc.devRef .tc main_v4) = _
  after_results
  rw [hA]
  exact unmerged 32 65536 casts32 shapeCasts_S64x65536_S64x2048x32 _

/-- The host's reshape of the third output array splits the merged axis: the result is the indicator array. -/
theorem tail_main_v5 (c : Dev nD) :
    Pipeline.afterTail₀ cfgs (dats m) 0 (V0 m) [hostOps1] c main_v5 = hotArr 64 (m ((c : Thread nD τ).loc main_arg2)) := by
  have hA : Pipeline.withArrays (cfgs 0).spec c (V0 m c) (fun w => (dats m 0 c).arrAt w (cfgs 0).N) (Proc.devRef .tc main_v2_2)
      = merged 64 131072 casts64 (m ((c : Thread nD τ).loc main_arg2)) :=
    (Pipeline.withArrays_arr spec0 launch0.win.arr_inj c _ _ 6).trans (final6 m c)
  unfold Pipeline.afterTail₀
  show StableHlo.after hostOps1 _ (Proc.devRef .tc main_v5) = _
  after_results
  rw [hA]
  exact unmerged 64 131072 casts64 shapeCasts_S64x131072_S64x2048x64 _

/-- Every weakly fair execution of the idealized kernel's program terminates with the three indicator arrays and
    the linear layer's result of the arguments as launched, and the arguments unchanged. -/
theorem run : θ_run defs (onTc (τ := τ) (main (F := Ideal))) ⟨m, fun _ => 0, ρ⟩ fun r => ∀ c : Dev nD,
      r.2.mem ((c.tc : Thread nD τ).loc main_v3) = hotArr 32 (m ((c.tc : Thread nD τ).loc main_arg0))
      ∧ r.2.mem ((c.tc : Thread nD τ).loc main_v4) = hotArr 32 (m ((c.tc : Thread nD τ).loc main_arg1))
      ∧ r.2.mem ((c.tc : Thread nD τ).loc main_v5) = hotArr 64 (m ((c.tc : Thread nD τ).loc main_arg2))
      ∧ r.2.mem ((c.tc : Thread nD τ).loc main_v2_3)
          = emb (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 (by decide) (by decide))).trans (tail_main_v3 m c),
      ((h c).2 main_v4 (Pipeline.mem_restRefs_of main_v4 (by decide) (by decide))).trans (tail_main_v4 m c),
      ((h c).2 main_v5 (Pipeline.mem_restRefs_of main_v5 (by decide) (by decide))).trans (tail_main_v5 m c),
      ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.RunValue

end
-- ==== Proof.RefIsSpec.lean ====
/-
  The reference's four results are the specification's functions of the argument arrays.

  Each indicator array is built by the host as: the integer array given a unit last axis and broadcast along it,
  compared for equality with an iota along the last axis broadcast over the positions, the bit converted unsigned.
  Read at (b, l, n) that is the indicator that the word at (b, l) is the category n. The embedding contracts the
  last axis of the three indicator arrays laid side by side (128 features) with the second axis of the weights:
  entry (b, l, e) is the sum over k of feature k of (b, l) times W (e, k), and the feature is read off the
  concatenation by the span k falls in.
-/
import proofs.«168513_j1365799600731_2_alg».proof.Proof.Gen.ReferenceIdeal.Read
import proofs.«168513_j1365799600731_2_alg».proof.Proof.Spec
import proofs.«168513_j1365799600731_2_alg».proof.Proof.LibCatLastAxis

noncomputable section

namespace Cert.ReferenceIdeal.RefValue

open Cert.ReferenceIdeal Cert.ReferenceIdeal.Read Cert.OneHotEmbed
open Idealize.ShloMosaic Idealize.ShloMosaic.ValueIdx
open scoped BigOperators

/-- The first result at an index. -/
theorem v0_apply (x0 : IVec S64x2048 32) (b : Fin 64) (l : Fin 2048) (n : Fin 32) :
    val_main_v0 (F := Ideal) x0 (ix3 b l n) = hot (x0 (ix2 b l)) n.val := by
  rw [val_main_v0_apply, val_main_call0_v4_apply, val_main_call0_v2_apply, val_main_call0_v0_apply,
    val_main_call0_v3_apply, val_main_call0_v1_apply]
  have e : idx_main_call0_v0 (idx_main_call0_v2 (ix3 b l n)) = ix2 b l := funext fun a => Fin.ext (by
    match a with
    | ⟨0, _⟩ => rfl
    | ⟨1, _⟩ => rfl)
  rw [e]
  rfl

/-- The second result at an index. -/
theorem v1_apply (x1 : IVec S64x2048 32) (b : Fin 64) (l : Fin 2048) (n : Fin 32) :
    val_main_v1 (F := Ideal) x1 (ix3 b l n) = hot (x1 (ix2 b l)) n.val := by
  rw [val_main_v1_apply, val_main_call1_v4_apply, val_main_call1_v2_apply, val_main_call1_v0_apply,
    val_main_call1_v3_apply, val_main_call1_v1_apply]
  have e : idx_main_call1_v0 (idx_main_call1_v2 (ix3 b l n)) = ix2 b l := funext fun a => Fin.ext (by
    match a with
    | ⟨0, _⟩ => rfl
    | ⟨1, _⟩ => rfl)
  rw [e]
  rfl

/-- The third result at an index. -/
theorem v2_apply (x2 : IVec S64x2048 32) (b : Fin 64) (l : Fin 2048) (n : Fin 64) :
    val_main_v2 (F := Ideal) x2 (ix3 b l n) = hot (x2 (ix2 b l)) n.val := by
  rw [val_main_v2_apply, val_main_call2_v4_apply, val_main_call2_v2_apply, val_main_call2_v0_apply,
    val_main_call2_v3_apply, val_main_call2_v1_apply]
  have e : idx_main_call2_v0 (idx_main_call2_v2 (ix3 b l n)) = ix2 b l := funext fun a => Fin.ext (by
    match a with
    | ⟨0, _⟩ => rfl
    | ⟨1, _⟩ => rfl)
  rw [e]
  rfl

/-- The first result is the indicator array of the first argument over 32 categories. -/
theorem v0_eq (x0 : IVec S64x2048 32) : val_main_v0 (F := Ideal) x0 = hotArr 32 x0 := by
  funext i
  obtain ⟨b, l, n, rfl⟩ : ∃ (b : Fin 64) (l : Fin 2048) (n : Fin 32), i = ix3 b l n := ⟨i 0, i 1, i 2, eq_ix3 i⟩
  exact v0_apply x0 b l n

/-- The second result is the indicator array of the second argument over 32 categories. -/
theorem v1_eq (x1 : IVec S64x2048 32) : val_main_v1 (F := Ideal) x1 = hotArr 32 x1 := by
  funext i
  obtain ⟨b, l, n, rfl⟩ : ∃ (b : Fin 64) (l : Fin 2048) (n : Fin 32), i = ix3 b l n := ⟨i 0, i 1, i 2, eq_ix3 i⟩
  exact v1_apply x1 b l n

/-- The third result is the indicator array of the third argument over 64 categories. -/
theorem v2_eq (x2 : IVec S64x2048 32) : val_main_v2 (F := Ideal) x2 = hotArr 64 x2 := by
  funext i
  obtain ⟨b, l, n, rfl⟩ : ∃ (b : Fin 64) (l : Fin 2048) (n : Fin 64), i = ix3 b l n := ⟨i 0, i 1, i 2, eq_ix3 i⟩
  exact v2_apply x2 b l n

/-- The three indicator arrays side by side, read at (b, l, k): feature k of the position. -/
theorem v3_apply (x0 x1 x2 : IVec S64x2048 32) (b : Fin 64) (l : Fin 2048) (k : Fin 128) :
    val_main_v3 (F := Ideal) x0 x1 x2 (ix3 b l k) = feat (x0 (ix2 b l)) (x1 (ix2 b l)) (x2 (ix2 b l)) k.val := by
  unfold val_main_v3 feat
  by_cases h1 : k.val < 32
  · rw [if_pos h1]
    exact (Cert.CatLastAxis.cat3_first _ _ _ _ b l k ⟨k.val, h1⟩ rfl).trans (v0_apply x0 b l ⟨k.val, h1⟩)
  · rw [if_neg h1]
    by_cases h2 : k.val < 64
    · rw [if_pos h2]
      exact (Cert.CatLastAxis.cat3_second _ _ _ _ b l k ⟨k.val - 32, by omega⟩
        (by show k.val = 32 + (k.val - 32); omega)).trans (v1_apply x1 b l ⟨k.val - 32, by omega⟩)
    · rw [if_neg h2]
      have hk : k.val < 128 := k.isLt
      exact (Cert.CatLastAxis.cat3_third _ _ _ _ b l k ⟨k.val - 64, by omega⟩
        (by show k.val = 32 + 32 + (k.val - 64); omega)).trans (v2_apply x2 b l ⟨k.val - 64, by omega⟩)

/-- The fourth result is the linear layer on every position's features. -/
theorem v4_eq (x0 x1 x2 : IVec S64x2048 32) (W : FVec Ideal S256x128 .f32) :
    val_main_v4 (F := Ideal) x0 x1 x2 W = emb x0 x1 x2 W := by
  funext i
  obtain ⟨b, l, e, rfl⟩ : ∃ (b : Fin 64) (l : Fin 2048) (e : Fin 256), i = ix3 b l e := ⟨i 0, i 1, i 2, eq_ix3 i⟩
  rw [val_main_v4_apply, emb_apply]
  refine Finset.sum_congr rfl fun k _ => ?_
  have el : lidx_main_v4 (ix3 b l e) k = ix3 b l k := funext fun a => Fin.ext (by
    match a with
    | ⟨0, _⟩ => rfl
    | ⟨1, _⟩ => rfl
    | ⟨2, _⟩ => rfl)
  have er : ridx_main_v4 (ix3 b l e) k = ix2 e k := funext fun a => Fin.ext (by
    match a with
    | ⟨0, _⟩ => rfl
    | ⟨1, _⟩ => rfl)
  rw [el, er, v3_apply]

end Cert.ReferenceIdeal.RefValue

end
-- ==== Proof.lean ====
/-
  One-hot encodings of three integer arrays and a linear layer on their concatenation: the kernel against its
  reference, on the extended reals.

  Both programs take three arrays of 32-bit words x0, x1, x2 : [64, 2048] and a weight matrix W : [256, 128], and
  return the indicator arrays of x0 and x1 over 32 categories and of x2 over 64 — entry (b, l, n) is 1 when the
  word at (b, l) is the category n, else 0 — and the image of the three laid side by side (128 features per
  position) under W: entry (b, l, e) = ∑ k, feature k of (b, l) · W (e, k) (Proof/Spec.lean).

  The reference builds each indicator by comparing the array, broadcast along a new last axis, with an iota and
  converting the bit; it concatenates the three and contracts the feature axis with W's second axis
  (Proof/RefIsSpec.lean, over its generated run and read-at-an-index lemmas). The kernel tiles the positions into
  2 × 16 blocks of 32 × 128; per block it compares against an iota the same way, widens the bit to a word before
  converting it (the same number), stores each indicator array with positions and categories merged into one
  axis, and multiplies the 4096 × 128 matrix of the block's features by the transposed weights from a zero
  accumulator (Proof/KernelBlock.lean); every entry depends on the words at one position only, so the blocks are
  the blocks of whole-array functions and tile the output arrays (Proof/KernelReads.lean, Proof/Array*.lean);
  three host reshapes split the merged axes again (Proof/KernelRun.lean). The two sides are then the same
  functions of the arguments, term for term: the same products in the same order, summed over the same 128
  features. No law of arithmetic beyond that is used, so the finiteness of W plays no part; changes of float
  format are the identity on the extended reals. The idealization rewrote nothing, so `preserves` is trivial,
  and the three frames are the generated frame certificates and the reference's generated run.
-/
import proofs.«168513_j1365799600731_2_alg».proof.Defs
import proofs.«168513_j1365799600731_2_alg».proof.Proof.Gen.Kernel
import proofs.«168513_j1365799600731_2_alg».proof.Proof.Gen.Kernel.Skeleton
import proofs.«168513_j1365799600731_2_alg».proof.Proof.Gen.Kernel.Launch
import proofs.«168513_j1365799600731_2_alg».proof.Proof.Gen.Kernel.Points
import proofs.«168513_j1365799600731_2_alg».proof.Proof.Gen.Kernel.Frame
import proofs.«168513_j1365799600731_2_alg».proof.Proof.Gen.KernelIdeal
import proofs.«168513_j1365799600731_2_alg».proof.Proof.Gen.KernelIdeal.Skeleton
import proofs.«168513_j1365799600731_2_alg».proof.Proof.Gen.KernelIdeal.Launch
import proofs.«168513_j1365799600731_2_alg».proof.Proof.Gen.KernelIdeal.Points
import proofs.«168513_j1365799600731_2_alg».proof.Proof.Gen.KernelIdeal.Frame
import proofs.«168513_j1365799600731_2_alg».proof.Proof.Gen.ReferenceIdeal
import proofs.«168513_j1365799600731_2_alg».proof.Proof.Gen.ReferenceIdeal.Run
import proofs.«168513_j1365799600731_2_alg».proof.Proof.Gen.ReferenceIdeal.Read
import proofs.«168513_j1365799600731_2_alg».proof.Proof.Gen.Pre_finite_inputs
import proofs.«168513_j1365799600731_2_alg».proof.Proof.KernelRun
import proofs.«168513_j1365799600731_2_alg».proof.Proof.RefIsSpec
import Idealize.ShloMosaic.Adequacy
import Idealize.ShloMosaic.Init

noncomputable section

namespace Cert.Proof

open Idealize.ShloMosaic Idealize.ShloMosaic.TcCoe Idealize.SL.Sem Cert.OneHotEmbed

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- From memories agreeing on the arguments both programs end with the three indicator arrays and the linear
    layer's result of those arguments: the kernel by its run read through its blocks and the host reshapes, the
    reference by its run read at an index. -/
theorem algebraic : Cert.algebraic_KernelIdeal_ReferenceIdeal := by
  intro m ρ m' ρ' _ hagree
  refine ⟨fun c => hotArr 32 (m ((c.tc : Thread Cert.KernelIdeal.nD Cert.KernelIdeal.τ).loc Cert.KernelIdeal.main_arg0)),
    fun c => hotArr 32 (m ((c.tc : Thread Cert.KernelIdeal.nD Cert.KernelIdeal.τ).loc Cert.KernelIdeal.main_arg1)),
    fun c => hotArr 64 (m ((c.tc : Thread Cert.KernelIdeal.nD Cert.KernelIdeal.τ).loc Cert.KernelIdeal.main_arg2)),
    fun c => emb (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ?_)
    (Cert.ReferenceIdeal.Value.run (F := Ideal) m' ρ')
  obtain ⟨h0, h1, h2, h4, ha⟩ := h c
  obtain ⟨a0, a1, a2, a3⟩ := hagree c
  refine ⟨?_, ?_, ?_, ?_, ha⟩
  · exact h0.trans ((Cert.ReferenceIdeal.Read.val_main_v0_eq _).trans
      ((Cert.ReferenceIdeal.RefValue.v0_eq _).trans (congrArg (hotArr 32) a0)))
  · exact h1.trans ((Cert.ReferenceIdeal.Read.val_main_v1_eq _).trans
      ((Cert.ReferenceIdeal.RefValue.v1_eq _).trans (congrArg (hotArr 32) a1)))
  · exact h2.trans ((Cert.ReferenceIdeal.Read.val_main_v2_eq _).trans
      ((Cert.ReferenceIdeal.RefValue.v2_eq _).trans (congrArg (hotArr 64) a2)))
  · refine h4.trans ((Cert.ReferenceIdeal.Read.val_main_v4_eq _ _ _ _).trans
      ((Cert.ReferenceIdeal.RefValue.v4_eq _ _ _ _).trans ?_))
    rw [a0, a1, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
